-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S256x128 : Shape := ⟨2, ![256, 128]⟩
abbrev S256 : Shape := ⟨1, ![256]⟩
abbrev S2x800000 : Shape := ⟨2, ![2, 800000]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S256 .f32) (main_arg6 : FVec F S800000 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S800000 .f32 := Host.absf main_arg6
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x64 .f32) (main_arg1 : FVec F S50000x64 .f32) (main_arg2 : FVec F S50000x64 .f32) (main_arg3 : FVec F S256x128 .f32) (main_arg4 : FVec F S256 .f32) (main_arg5 : IVec S2x800000 32) (main_arg6 : FVec F S800000 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg6 main_v13 main_v16
-- ==== Kernel.lean ====
abbrev S50000x64 : Shape := ⟨2, ![50000, 64]⟩
abbrev S256x128 : Shape := ⟨2, ![256, 128]⟩
abbrev S256 : Shape := ⟨1, ![256]⟩
abbrev S2x800000 : Shape := ⟨2, ![2, 800000]⟩
abbrev S800000 : Shape := ⟨1, ![800000]⟩
abbrev S50000x128 : Shape := ⟨2, ![50000, 128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x256 : Shape := ⟨2, ![128, 256]⟩
abbrev S1x256 : Shape := ⟨2, ![1, 256]⟩
abbrev S5000x128 : Shape := ⟨2, ![5000, 128]⟩
abbrev S5000x64 : Shape := ⟨2, ![5000, 64]⟩
abbrev S5000x256 : Shape := ⟨2, ![5000, 256]⟩

abbrev nBuf : Space → Nat
  | .hbm => 71
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S256x128, .f32⟩
  | .hbm, ⟨4, _⟩ => ⟨S256, .f32⟩
  | .hbm, ⟨5, _⟩ => ⟨S2x800000, .i32⟩
  | .hbm, ⟨6, _⟩ => ⟨S800000, .f32⟩
  | .hbm, ⟨7, _⟩ => ⟨S50000x128, .f32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S850000x1, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S128x256, .f32⟩
  | .hbm, ⟨68, _⟩ => ⟨S1x256, .f32⟩
  | .hbm, ⟨69, _⟩ => ⟨S50000x64, .f32⟩
  | .hbm, ⟨70, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49_0 : Ref sig .tc := ⟨.hbm, 69, rfl⟩
abbrev main_v49_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S50000x64_S50000x64_S50000x128_d1 : Shape.Concatenates [S50000x64, S50000x64] S50000x128 1
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x64 : S5000x256.Slices ![0, 0] S5000x64
  slices_S5000x256_o0_64_S5000x64 : S5000x256.Slices ![0, 64] S5000x64
  slices_S5000x256_o0_128_S5000x64 : S5000x256.Slices ![0, 128] S5000x64
  slices_S5000x256_o0_192_S5000x64 : S5000x256.Slices ![0, 192] S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v46) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v49_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S256x128 : Shape := ⟨2, ![256, 128]⟩
abbrev S256 : Shape := ⟨1, ![256]⟩
abbrev S2x800000 : Shape := ⟨2, ![2, 800000]⟩
abbrev S800000 : Shape := ⟨1, ![800000]⟩
abbrev S50000x128 : Shape := ⟨2, ![50000, 128]⟩
abbrev S128x256 : Shape := ⟨2, ![128, 256]⟩
abbrev S50000x256 : Shape := ⟨2, ![50000, 256]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 106
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S256x128, .f32⟩
  | .hbm, ⟨4, _⟩ => ⟨S256, .f32⟩
  | .hbm, ⟨5, _⟩ => ⟨S2x800000, .i32⟩
  | .hbm, ⟨6, _⟩ => ⟨S800000, .f32⟩
  | .hbm, ⟨7, _⟩ => ⟨S50000x128, .f32⟩
  | .hbm, ⟨8, _⟩ => ⟨S128x256, .f32⟩
  | .hbm, ⟨9, _⟩ => ⟨S50000x256, .f32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S_, .f32⟩
  | .hbm, ⟨19, _⟩ => ⟨S50000, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x256, .f32⟩
  | .hbm, ⟨64, _⟩ => ⟨S850000x256, .f32⟩
  | .hbm, ⟨65, _⟩ => ⟨S_, .f32⟩
  | .hbm, ⟨66, _⟩ => ⟨S50000x256, .f32⟩
  | .hbm, ⟨67, _⟩ => ⟨S850000x1, .i32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S50000x64, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]

class Facts₀ : Prop where
  concatenates_S50000x64_S50000x64_S50000x128_d1 : Shape.Concatenates [S50000x64, S50000x64] S50000x128 1
  transposes_S256x128_S128x256_1_0 : S256x128.Transposes [1, 0] S128x256
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  bcast_S_S50000x64 : S_.BroadcastsInDim S50000x64 (![] : Fin 0 → Fin S50000x64.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KerHost.lean ====
/-
  What the kernel's region finds in the arrays its windows stage.

  Before the one Pallas call the kernel's host code computes, from the arguments, the aggregated features
      agg = segment_sum(norm · combined[row], col)                       ([50000, 128])
  — the same edge weights `norm`, the same normalised row words and the same column words as the reference's, applied
  to the UNPROJECTED 128-wide features —, the transposed matrix `Wᵀ` and the bias laid out as one row. The fourth
  window stages the argument `c_t` itself. Each is read off the host operations' composed term, for any float values.
-/
import proofs.«153381_j6794638262633_2_alg».proof.Proof.Gen.KernelIdeal.Frame
import proofs.«153381_j6794638262633_2_alg».proof.Proof.Gen.ReferenceIdeal.Read
import Idealize.ShloMosaic.Lib.StableHlo.Run

noncomputable section

namespace Cert.GraphConv

open Idealize.ShloMosaic Idealize.ShloMosaic.TcCoe Idealize.SL.Sem Cert.KernelIdeal Cert.KernelIdeal.Gen
open Cert.ReferenceIdeal.Read

/-- Two arrays joined end to end change only through their two pieces. -/
@[congr] theorem concatenate_pair_congr {α : Type} {t s₁ s₂ : Shape} (a : Fin t.rank) {x₁ x₁' : s₁.Idx → α}
    {x₂ x₂' : s₂.Idx → α} (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

variable {F : FTy → Type} [FloatOps F]

/-- The kernel's aggregated features: the weighted source rows of the combined features summed into each edge's end node. -/
def aggK (x0 x1 : FVec F S50000x64 .f32) (x5 : IVec S2x800000 32) (x6 : FVec F S800000 .f32) :
    FVec F S50000x128 .f32 :=
  Host.scatterAdd scatter_S50000x128_S850000x1_S850000x128_1_0_0_1
    (broadcastInDim S50000x128 ![] bcast_S_S50000x128 (constant (F := F) S_ .f32 0x00000000#32))
    (val_main_v47 (F := F) x5)
    (mulf (broadcastInDim S850000x128 ![0, 1] bcast_S850000x1_S850000x128_0_1 (val_main_v36 (F := F) x5 x6))
      (Host.gather gather_S50000x128_S850000x1_S850000x128_1_0_n_n_0_1_1128 (val_main_v0 (F := F) x0 x1)
        (val_main_v42 (F := F) x5)))

variable (m : (ℓ : Loc nD τ sig) → Buf (Elt F) ℓ)

set_option maxHeartbeats 40000000 in
/-- Window 0's array is the aggregated features of the arguments. -/
theorem V_agg (c : Dev nD) :
    (V m c main_v46 : S50000x128.Idx → F .f32)
      = aggK (m ((c : Thread nD τ).loc main_arg0)) (m ((c : Thread nD τ).loc main_arg1))
          (m ((c : Thread nD τ).loc main_arg5)) (m ((c : Thread nD τ).loc main_arg6)) := by
  dsimp only [V]
  simp only [hostOps0, hostOps0_1, hostOps0_2, List.flatten_cons, List.flatten_nil, List.append_nil, List.cons_append,
    List.nil_append]
  after_results_simp
  rfl

set_option maxHeartbeats 40000000 in
/-- Window 1's array is the transposed weight matrix. -/
theorem V_wt (c : Dev nD) :
    (V m c main_v47 : S128x256.Idx → F .f32) = val_main_v1 (F := F) (m ((c : Thread nD τ).loc main_arg3)) := by
  dsimp only [V]
  simp only [hostOps0, hostOps0_1, hostOps0_2, List.flatten_cons, List.flatten_nil, List.append_nil, List.cons_append,
    List.nil_append]
  after_results_simp
  rfl

set_option maxHeartbeats 40000000 in
/-- Window 2's array is the bias laid out as one row. -/
theorem V_bias (c : Dev nD) :
    (V m c main_v48 : S1x256.Idx → F .f32)
      = shapeCast S1x256 (m ((c : Thread nD τ).loc main_arg4)) shapeCasts_S256_S1x256 := by
  dsimp only [V]
  simp only [hostOps0, hostOps0_1, hostOps0_2, List.flatten_cons, List.flatten_nil, List.append_nil, List.cons_append,
    List.nil_append]
  after_results_simp
  rfl

end Cert.GraphConv

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.KerCell.lean ====
/-
  The kernel body's pre-activation `acc = agg · Wᵀ + b` of one row block, read at one entry.

  The body loads a block of 5000 rows of the aggregated 128-wide features, the whole `128 × 256` matrix `Wᵀ` and the bias
  as one row; it multiplies on the matrix unit into a zero accumulator and adds the bias row repeated over the 5000
  rows. At the extended reals a narrowing of the float format is the identity and the product into zero is the plain
  contraction, so at row `r`, column `j` of the block
      acc (r, j) = Σ_k agg (r, k) · Wᵀ (k, j) + b (0, j) .
-/
import proofs.«153381_j6794638262633_2_alg».proof.Proof.Gen.KernelIdeal.Skeleton
import proofs.«153381_j6794638262633_2_alg».proof.Proof.LibDotSum
import Idealize.ShloMosaic.PureOps.Ideal.Laws
import Idealize.ShloMosaic.Lib.ValueIdx
import Idealize.ShloMosaic.Lib.Pipeline.Value

noncomputable section

open scoped BigOperators

namespace Cert.GraphConv

open Idealize.ShloMosaic Idealize.ShloMosaic.ValueIdx Cert.KernelIdeal Cert.KernelIdeal.Gen

/-- THE BODY'S PRE-ACTIVATION at `(r, j)` of its block, for any loaded blocks `P0` (features), `P1` (matrix), `P2` (bias row). -/
theorem acc_apply (P0 : Vec Ideal S5000x128 .f32) (P1 : Vec Ideal S128x256 .f32) (P2 : Vec Ideal S1x256 .f32)
    (r : Fin 5000) (j : Fin 256) :
    k0_pay1 (F := Ideal) P0 P1 P2 (ix2 r j)
      = (∑ k : Fin 128, P0 (ix2 r k) * P1 (ix2 k j)) + P2 (ix2 (0 : Fin 1) j) := by
  unfold k0_pay1
  refine (addf_apply _ _ (ix2 r j)).trans ?_
  congr 1
  · refine (Ideal.matmul_constant_zero_apply dot_S5000x128_S128x256_S5000x256_1_0_0_1_n_n none _ _ (ix2 r j)).trans ?_
    refine (Cert.LibDotSum.sum_dot dot_S5000x128_S128x256_S5000x256_1_0_0_1_n_n rfl rfl
      (fun _ _ => rfl) (fun _ _ => rfl) (fun _ _ => rfl) (fun _ _ => rfl) _ _ r j).trans ?_
    refine Finset.sum_congr rfl fun k _ => ?_
    rw [truncf_apply, truncf_apply, shapeCast_self, shapeCast_self]
  · refine (broadcastTo_apply _ _ (ix2 r j) (ix2 (0 : Fin 1) j) (fun a => ?_)).trans ?_
    · match a with
      | ⟨0, _⟩ => rfl
      | ⟨1, _⟩ =>
        show j.val = if (256 : Nat) = 1 then 0 else j.val
        rw [if_neg (by decide)]
    · rw [shapeCast_self]

end Cert.GraphConv

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.RefCell.lean ====
/-
  The reference's pre-activation `cc = segment_sum(norm · (combined · Wᵀ)[row], col) + b`, read at one entry.

  The reference projects the combined features `[x, h]` by `Wᵀ` first and aggregates the 256-wide messages afterwards.
  The edges that END in node `n` are those whose column word, read as a signed integer, is `n` (`hits`): the scatter
  drops a word outside `[0, 50000)`. The SOURCE row of edge `e` is its row word, normalised (a negative word has 50000
  added) and then clamped into `[0, 49999]` by the gather (`src`). With `norm e` the symmetric normalisation weight,
      cc (n, j) = Σ_{e ∈ hits n} norm e · (Σ_k combined (src e, k) · Wᵀ (k, j)) + b j .
  The zero array the scatter accumulates into contributes the number 0.
-/
import proofs.«153381_j6794638262633_2_alg».proof.Proof.Gen.ReferenceIdeal.Read
import proofs.«153381_j6794638262633_2_alg».proof.Proof.LibScatterGather
import Idealize.ShloMosaic.PureOps.Ideal.Laws
import Idealize.ShloMosaic.Lib.ValueIdx

noncomputable section

open scoped BigOperators

namespace Cert.GraphConv

open Idealize.ShloMosaic Idealize.ShloMosaic.ValueIdx Cert.ReferenceIdeal Cert.ReferenceIdeal.Read Cert.Lib.ScatterGather

/-- The edges (self-loops included) that end in node `n`: their column word, read signed, is `n`. -/
def hits (x5 : IVec S2x800000 32) (n : Fin 50000) : Finset (Fin 850000) :=
  Finset.univ.filter fun e : Fin 850000 => (val_main_v47 (F := Ideal) x5 (ix2 e (0 : Fin 1))).toInt = (n.val : ℤ)

/-- The source row of edge `e`: its normalised row word, read signed and clamped into `[0, 49999]`. -/
def src (x5 : IVec S2x800000 32) (e : Fin 850000) : Fin 50000 :=
  ⟨min (val_main_v42 (F := Ideal) x5 (ix2 e (0 : Fin 1))).toInt.toNat (50000 - 1), by omega⟩

/-- The weight column, repeated over 256 columns, reads the weight of its row. -/
theorem weight_apply (x5 : IVec S2x800000 32) (x6 : FVec Ideal S800000 .f32) (e : Fin 850000) (j : Fin 256) :
    val_main_v44 (F := Ideal) x5 x6 (ix2 e j) = val_main_v35 (F := Ideal) x5 x6 (ix1 e) := by
  rw [val_main_v44_apply, val_main_v36_apply]
  refine congrArg _ (funext fun a => Fin.ext ?_)
  match a with
  | ⟨0, _⟩ => rfl

/-- The gathered projection at `(e, j)`: the projected features of the edge's source row. -/
theorem gathered_apply (x0 x1 : FVec Ideal S50000x64 .f32) (x3 : FVec Ideal S256x128 .f32) (x5 : IVec S2x800000 32)
    (e : Fin 850000) (j : Fin 256) :
    val_main_v43 (F := Ideal) x0 x1 x3 x5 (ix2 e j)
      = ∑ k : Fin 128, val_main_v0 (F := Ideal) x0 x1 (ix2 (src x5 e) k) * val_main_v1 (F := Ideal) x3 (ix2 k j) := by
  unfold val_main_v43
  refine (gather_rows_apply (N := 50000) (M := 850000) (C := 256) (by decide)
    gather_S50000x256_S850000x1_S850000x256_1_0_n_n_0_1_1256.wf _ _ e j).trans ?_
  rw [val_main_v2_apply]
  refine Finset.sum_congr rfl fun k _ => ?_
  have el : lidx_main_v2 (ix2 (⟨min (val_main_v42 (F := Ideal) x5 (ix2 e (0 : Fin 1))).toInt.toNat (50000 - 1), by omega⟩ : Fin 50000) j) k
      = ix2 (src x5 e) k := funext fun a => Fin.ext (by
    match a with
    | ⟨0, _⟩ => rfl
    | ⟨1, _⟩ => rfl)
  have er : ridx_main_v2 (ix2 (⟨min (val_main_v42 (F := Ideal) x5 (ix2 e (0 : Fin 1))).toInt.toNat (50000 - 1), by omega⟩ : Fin 50000) j) k
      = ix2 k j := funext fun a => Fin.ext (by
    match a with
    | ⟨0, _⟩ => rfl
    | ⟨1, _⟩ => rfl)
  rw [el, er]

/-- The bias, laid out as a row and repeated over the nodes, reads its entry `j`. -/
theorem bias_apply (x4 : FVec Ideal S256 .f32) (n : Fin 50000) (j : Fin 256) :
    val_main_v50 (F := Ideal) x4 (ix2 n j) = x4 (ix1 j) := by
  rw [val_main_v50_apply, val_main_v49_apply]
  refine congrArg _ (funext fun a => Fin.ext ?_)
  match a with
  | ⟨0, _⟩ => rfl

/-- THE REFERENCE'S PRE-ACTIVATION at `(n, j)`. -/
theorem cc_apply (x0 x1 : FVec Ideal S50000x64 .f32) (x3 : FVec Ideal S256x128 .f32) (x4 : FVec Ideal S256 .f32)
    (x5 : IVec S2x800000 32) (x6 : FVec Ideal S800000 .f32) (n : Fin 50000) (j : Fin 256) :
    val_main_v51 (F := Ideal) x0 x1 x3 x4 x5 x6 (ix2 n j)
      = (∑ e ∈ hits x5 n, val_main_v35 (F := Ideal) x5 x6 (ix1 e)
          * ∑ k : Fin 128, val_main_v0 (F := Ideal) x0 x1 (ix2 (src x5 e) k) * val_main_v1 (F := Ideal) x3 (ix2 k j))
        + x4 (ix1 j) := by
  rw [val_main_v51_apply]
  show val_main_v48 (F := Ideal) x0 x1 x3 x5 x6 (ix2 n j) + val_main_v50 (F := Ideal) x4 (ix2 n j) = _
  rw [bias_apply]
  refine congrArg (· + x4 (ix1 j)) ?_
  unfold val_main_v48
  refine (scatterAdd_rows_apply (N := 50000) (M := 850000) (C := 256)
    scatter_S50000x256_S850000x1_S850000x256_1_0_0_1.wf _ _ _ n j).trans ?_
  have hz : val_main_v46 (F := Ideal) (ix2 n j) = 0 := Ideal.ofBits_zero_f32
  rw [hz, zero_add]
  refine Finset.sum_congr rfl fun e _ => ?_
  rw [val_main_v45_apply]
  show val_main_v44 (F := Ideal) x5 x6 (ix2 e j) * val_main_v43 (F := Ideal) x0 x1 x3 x5 (ix2 e j) = _
  rw [weight_apply, gathered_apply]

end Cert.GraphConv

end
-- ==== Proof.LibERealSum.lean ====
/-
  Finite sums of extended reals that are all real numbers: the coercion from ℝ commutes with a finite sum, sums,
  products, differences and scalings of real-valued terms are real-valued, and over real-valued terms the laws that
  fail at the infinities (scaling a sum term by term, splitting a sum of differences) hold. A value proof whose two
  sides differ by such a law first shows its terms real (from finite inputs) and then cites these.
-/
import Idealize.ShloMosaic.PureOps.Ideal

noncomputable section

namespace Cert.LibERealSum

open Finset

/-- The coercion ℝ → EReal commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
abbrev IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- A finite sum of real-valued terms is real-valued. -/
theorem IsReal.sum {ι : Type*} (s : Finset ι) (g : ι → EReal) (h : ∀ i ∈ s, IsReal (g i)) : IsReal (∑ i ∈ s, g i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Real witnesses for a family of real-valued terms. -/
theorem exists_real_fun {ι : Type*} (s : Finset ι) (g : ι → EReal) (h : ∀ i ∈ s, IsReal (g i)) :
    ∃ f : ι → ℝ, ∀ i ∈ s, g i = (f i : EReal) := by
  have h' : ∀ i ∈ s, ∃ r : ℝ, g i = (r : EReal) := h
  choose! f hf using h'
  exact ⟨f, hf⟩

/-- Over real-valued terms, scaling a finite sum by a real scales it term by term. -/
theorem sum_mul_real {ι : Type*} (s : Finset ι) (g : ι → EReal) (h : ∀ i ∈ s, IsReal (g i)) (c : ℝ) :
    (∑ i ∈ s, g i) * (c : EReal) = ∑ i ∈ s, g i * (c : EReal) := by
  obtain ⟨f, hf⟩ := exists_real_fun s g h
  have e1 : ∑ i ∈ s, g i = ∑ i ∈ s, (f i : EReal) := Finset.sum_congr rfl hf
  have e2 : ∑ i ∈ s, g i * (c : EReal) = ∑ i ∈ s, ((f i * c : ℝ) : EReal) :=
    Finset.sum_congr rfl fun i hi => by rw [hf i hi, EReal.coe_mul]
  rw [e1, e2, ← coe_sum, ← coe_sum, ← EReal.coe_mul, Finset.sum_mul]

/-- Over real-valued terms, a finite sum of differences is the difference of the sums. -/
theorem sum_sub_real {ι : Type*} (s : Finset ι) (g k : ι → EReal) (hg : ∀ i ∈ s, IsReal (g i)) (hk : ∀ i ∈ s, IsReal (k i)) :
    ∑ i ∈ s, (g i - k i) = (∑ i ∈ s, g i) - ∑ i ∈ s, k i := by
  obtain ⟨f, hf⟩ := exists_real_fun s g hg
  obtain ⟨e, he⟩ := exists_real_fun s k hk
  have e1 : ∑ i ∈ s, g i = ∑ i ∈ s, (f i : EReal) := Finset.sum_congr rfl hf
  have e2 : ∑ i ∈ s, k i = ∑ i ∈ s, (e i : EReal) := Finset.sum_congr rfl he
  have e3 : ∑ i ∈ s, (g i - k i) = ∑ i ∈ s, ((f i - e i : ℝ) : EReal) :=
    Finset.sum_congr rfl fun i hi => by rw [hf i hi, he i hi, EReal.coe_sub]
  rw [e1, e2, e3, ← coe_sum, ← coe_sum, ← coe_sum, ← EReal.coe_sub, Finset.sum_sub_distrib]

open Idealize.ShloMosaic in
/-- A real number divided by a nonzero real (the programs' division at the extended reals) is a real number. -/
theorem IsReal.div {a : EReal} (ha : IsReal a) {c : ℝ} (hc : c ≠ 0) : IsReal (Ideal.div a (c : EReal)) := by
  rw [Ideal.div_coe hc]
  exact ha.mul (IsReal.coe _)

open Idealize.ShloMosaic in
/-- Over real-valued terms, dividing a finite sum by a nonzero real divides it term by term: a mean of sums is the
    sum of the means. -/
theorem sum_div_real {ι : Type*} (s : Finset ι) (g : ι → EReal) (h : ∀ i ∈ s, IsReal (g i)) {c : ℝ} (hc : c ≠ 0) :
    Ideal.div (∑ i ∈ s, g i) (c : EReal) = ∑ i ∈ s, Ideal.div (g i) (c : EReal) := by
  rw [Ideal.div_coe hc]
  simp only [Ideal.div_coe hc]
  exact sum_mul_real s g h (1 / c)

end Cert.LibERealSum

end
-- ==== Proof.LibLinearAgg.lean ====
/-
  Aggregating before or after a linear map, over the extended reals.

  A graph convolution sums, into node `v`, the messages `s e · x(r e)` of the edges `e` that end in `v`, where `x(r e)`
  is the feature row of the edge's source and `s e` its weight. A linear map of the features — a product with a matrix
  `W` — may be taken before the messages are formed or after the sum:
      Σ_e s e · (Σ_k x(r e, k) · W k)  =  Σ_k (Σ_e s e · x(r e, k)) · W k .
  Over the reals this is distributivity and an exchange of two finite sums. Over the extended reals both fail at an
  infinity, so the law is stated for weights, features and matrix entries that are all real numbers: the coercion from
  the reals is pushed outward through the products and both sums, and the identity is proved there.
-/
import proofs.«153381_j6794638262633_2_alg».proof.Proof.LibERealSum

noncomputable section

open scoped BigOperators

namespace Cert.LinearAgg

open Cert.LibERealSum

/-- The law: over real-valued weights `s`, rows `X e` and a column `Wc`, projecting each message and then summing
    the messages over a set `F` of edges is summing the messages and then projecting the sum. -/
theorem sum_project {ι κ : Type*} [Fintype κ] (F : Finset ι) (s : ι → EReal) (X : ι → κ → EReal) (Wc : κ → EReal)
    (hs : ∀ e ∈ F, IsReal (s e)) (hX : ∀ e ∈ F, ∀ k, IsReal (X e k)) (hW : ∀ k, IsReal (Wc k)) :
    ∑ k, (∑ e ∈ F, s e * X e k) * Wc k = ∑ e ∈ F, s e * ∑ k, X e k * Wc k := by
  classical
  obtain ⟨s', hs'⟩ := exists_real_fun F s hs
  have hX1 : ∀ e ∈ F, ∃ f : κ → ℝ, ∀ k, X e k = (f k : EReal) := fun e he => by
    have h := hX e he
    choose f hf using h
    exact ⟨f, hf⟩
  choose! X' hX' using hX1
  have hW1 : ∃ w : κ → ℝ, ∀ k, Wc k = (w k : EReal) := by
    choose w hw using hW
    exact ⟨w, hw⟩
  obtain ⟨w, hw⟩ := hW1
  have L : ∀ k, (∑ e ∈ F, s e * X e k) * Wc k = (((∑ e ∈ F, s' e * X' e k) * w k : ℝ) : EReal) := by
    intro k
    have h1 : ∑ e ∈ F, s e * X e k = ((∑ e ∈ F, s' e * X' e k : ℝ) : EReal) := by
      rw [coe_sum]
      exact Finset.sum_congr rfl fun e he => by rw [hs' e he, hX' e he k, EReal.coe_mul]
    rw [h1, hw k, ← EReal.coe_mul]
  have R : ∀ e ∈ F, s e * ∑ k, X e k * Wc k = ((s' e * ∑ k, X' e k * w k : ℝ) : EReal) := by
    intro e he
    have h1 : ∑ k, X e k * Wc k = ((∑ k, X' e k * w k : ℝ) : EReal) := by
      rw [coe_sum]
      exact Finset.sum_congr rfl fun k _ => by rw [hX' e he k, hw k, EReal.coe_mul]
    rw [h1, hs' e he, ← EReal.coe_mul]
  rw [Finset.sum_congr rfl (fun k _ => L k), Finset.sum_congr rfl R, ← coe_sum, ← coe_sum]
  congr 1
  simp only [Finset.sum_mul, Finset.mul_sum]
  rw [Finset.sum_comm]
  exact Finset.sum_congr rfl fun e _ => Finset.sum_congr rfl fun k _ => by ring

end Cert.LinearAgg

end
-- ==== Proof.KerAgg.lean ====
/-
  The kernel's aggregated features read at one entry, and the pre-activation they give.

  The kernel aggregates the 128-wide combined features BEFORE projecting them:
      agg (n, k) = Σ_{e ∈ hits n} norm e · combined (src e, k) ,
  over the same edges, sources and weights as the reference. Projecting that sum by `Wᵀ` and adding the bias is the
  reference's pre-activation `cc (n, j)`: the projection moves across the sum of weighted rows because every number in
  sight is real.
-/
import proofs.«153381_j6794638262633_2_alg».proof.Proof.KerHost
import proofs.«153381_j6794638262633_2_alg».proof.Proof.RefCell
import proofs.«153381_j6794638262633_2_alg».proof.Proof.LibLinearAgg

noncomputable section

open scoped BigOperators

namespace Cert.GraphConv

open Idealize.ShloMosaic Idealize.ShloMosaic.ValueIdx Cert.ReferenceIdeal Cert.ReferenceIdeal.Read Cert.Lib.ScatterGather
open Cert.LibERealSum

/-- THE KERNEL'S AGGREGATE at `(n, k)`. -/
theorem aggK_apply (x0 x1 : FVec Ideal S50000x64 .f32) (x5 : IVec S2x800000 32) (x6 : FVec Ideal S800000 .f32)
    (n : Fin 50000) (k : Fin 128) :
    aggK x0 x1 x5 x6 (ix2 n k)
      = ∑ e ∈ hits x5 n, val_main_v35 (F := Ideal) x5 x6 (ix1 e) * val_main_v0 (F := Ideal) x0 x1 (ix2 (src x5 e) k) := by
  unfold aggK
  refine (scatterAdd_rows_apply (N := 50000) (M := 850000) (C := 128)
    Cert.KernelIdeal.scatter_S50000x128_S850000x1_S850000x128_1_0_0_1.wf _ _ _ n k).trans ?_
  have hz : broadcastInDim Cert.KernelIdeal.S50000x128 ![] Cert.KernelIdeal.Gen.bcast_S_S50000x128
      (constant (F := Ideal) Cert.KernelIdeal.S_ .f32 0x00000000#32) (ix2 n k) = 0 := Ideal.ofBits_zero_f32
  rw [hz, zero_add]
  refine Finset.sum_congr rfl fun e _ => ?_
  rw [mulf_apply]
  have hw : broadcastInDim Cert.KernelIdeal.S850000x128 ![0, 1] Cert.KernelIdeal.Gen.bcast_S850000x1_S850000x128_0_1
      (val_main_v36 (F := Ideal) x5 x6) (ix2 e k) = val_main_v35 (F := Ideal) x5 x6 (ix1 e) := by
    refine (broadcastInDim_apply _ Cert.KernelIdeal.Gen.bcast_S850000x1_S850000x128_0_1 _ (ix2 e k) (ix2 e (0 : Fin 1))
      (fun a => ?_)).trans ?_
    · match a with
      | ⟨0, _⟩ =>
        show e.val = if (850000 : Nat) = 1 then 0 else e.val
        rw [if_neg (by decide)]
      | ⟨1, _⟩ =>
        show 0 = if (1 : Nat) = 1 then 0 else k.val
        rw [if_pos rfl]
    · rw [val_main_v36_apply]
      refine congrArg _ (funext fun a => Fin.ext ?_)
      match a with
      | ⟨0, _⟩ => rfl
  have hg : Host.gather Cert.KernelIdeal.gather_S50000x128_S850000x1_S850000x128_1_0_n_n_0_1_1128
      (val_main_v0 (F := Ideal) x0 x1) (val_main_v42 (F := Ideal) x5) (ix2 e k)
      = val_main_v0 (F := Ideal) x0 x1 (ix2 (src x5 e) k) :=
    gather_rows_apply (N := 50000) (M := 850000) (C := 128) (by decide)
      Cert.KernelIdeal.gather_S50000x128_S850000x1_S850000x128_1_0_n_n_0_1_1128.wf _ _ e k
  rw [hw, hg]

/-- THE TWO PRE-ACTIVATIONS AGREE: the kernel's aggregate projected by `Wᵀ`, plus the bias, is the reference's `cc`,
    when the edge weights, the combined features and the matrix are real-valued. -/
theorem projected_agg_eq_cc (x0 x1 : FVec Ideal S50000x64 .f32) (x3 : FVec Ideal S256x128 .f32) (x4 : FVec Ideal S256 .f32)
    (x5 : IVec S2x800000 32) (x6 : FVec Ideal S800000 .f32)
    (hN : ∀ i, IsReal (val_main_v35 (F := Ideal) x5 x6 i)) (hC : ∀ i, IsReal (val_main_v0 (F := Ideal) x0 x1 i))
    (hW : ∀ i, IsReal (val_main_v1 (F := Ideal) x3 i)) (n : Fin 50000) (j : Fin 256) :
    (∑ k : Fin 128, aggK x0 x1 x5 x6 (ix2 n k) * val_main_v1 (F := Ideal) x3 (ix2 k j)) + x4 (ix1 j)
      = val_main_v51 (F := Ideal) x0 x1 x3 x4 x5 x6 (ix2 n j) := by
  rw [cc_apply]
  refine congrArg (· + x4 (ix1 j)) ?_
  rw [Finset.sum_congr rfl fun k _ => by rw [aggK_apply]]
  exact Cert.LinearAgg.sum_project (hits x5 n) (fun e => val_main_v35 (F := Ideal) x5 x6 (ix1 e))
    (fun e k => val_main_v0 (F := Ideal) x0 x1 (ix2 (src x5 e) k)) (fun k => val_main_v1 (F := Ideal) x3 (ix2 k j))
    (fun e _ => hN _) (fun e _ k => hC _) (fun k => hW _)

end Cert.GraphConv

end
-- ==== Proof.CellSpec.lean ====
/-
  The LSTM cell as a function of the pre-activation and the previous cell state.

  The pre-activation `cc` is a `[50000, 256]` array: four gates of 64 columns side by side, in the order input, forget,
  output, candidate. With `σ` the logistic function,
      c_next (n, q) = σ(cc (n, q + 64)) · c (n, q) + σ(cc (n, q)) · tanh(cc (n, q + 192)),
      h_next (n, q) = σ(cc (n, q + 128)) · tanh(c_next (n, q)).
  Both programs compute exactly this from their own pre-activation; the definitions are spelt in the operations of the
  extended reals so that either program's entry unfolds to them.
-/
import Idealize.ShloMosaic.PureOps.Ideal
import Idealize.ShloMosaic.Lib.ValueIdx

noncomputable section

namespace Cert.GraphConv

open Idealize.ShloMosaic Idealize.ShloMosaic.ValueIdx

/-- The shape of a state array: 50000 nodes, 64 channels. -/
abbrev SState : Shape := ⟨2, ![50000, 64]⟩
/-- The shape of the pre-activation: 50000 nodes, four gates of 64 channels. -/
abbrev SGates : Shape := ⟨2, ![50000, 256]⟩

/-- Column `q + o` of the 256-wide pre-activation: gate offset `o` is 0, 64, 128 or 192. -/
def gateIx (o : Nat) (ho : o + 64 ≤ 256) (i : SState.Idx) : SGates.Idx :=
  ix2 (i 0) ⟨(i 1).val + o, by have h : (i 1).val < 64 := (i 1).isLt; omega⟩

/-- The next cell state. -/
def cNext (cc : SGates.Idx → EReal) (c : SState.Idx → EReal) : SState.Idx → EReal := fun i =>
  FloatOps.addf (F := Ideal) (φ := .f32)
    (FloatOps.mulf (F := Ideal) (φ := .f32) (FloatOps.logistic (F := Ideal) (φ := .f32) (cc (gateIx 64 (by norm_num) i))) (c i))
    (FloatOps.mulf (F := Ideal) (φ := .f32) (FloatOps.logistic (F := Ideal) (φ := .f32) (cc (gateIx 0 (by norm_num) i)))
      (FloatOps.tanh (F := Ideal) (φ := .f32) (cc (gateIx 192 (by norm_num) i))))

/-- The next hidden state. -/
def hNext (cc : SGates.Idx → EReal) (c : SState.Idx → EReal) : SState.Idx → EReal := fun i =>
  FloatOps.mulf (F := Ideal) (φ := .f32) (FloatOps.logistic (F := Ideal) (φ := .f32) (cc (gateIx 128 (by norm_num) i)))
    (FloatOps.tanh (F := Ideal) (φ := .f32) (cNext cc c i))

end Cert.GraphConv

end
-- ==== Proof.KerPoint.lean ====
/-
  One grid point of the kernel, over arbitrary blocks.

  Grid point `t` of the ten sees a block `B0` of 5000 rows of the aggregated features, the matrix `B1`, the bias row `B2`
  and a block `B3` of 5000 rows of the previous cell state. If those blocks hold rows `5000·t … 5000·t + 4999` of the
  kernel's aggregate and of `c_t`, the whole `Wᵀ` and the bias, then the body's pre-activation at `(r, j)` is the reference's
  `cc` at global row `5000·t + r` — the projection moved across the aggregation, every number involved being real — and
  the two blocks the body leaves are the LSTM cell of `cc` on those rows.
-/
import proofs.«153381_j6794638262633_2_alg».proof.Proof.Gen.KernelIdeal.Value
import proofs.«153381_j6794638262633_2_alg».proof.Proof.KerCell
import proofs.«153381_j6794638262633_2_alg».proof.Proof.KerAgg
import proofs.«153381_j6794638262633_2_alg».proof.Proof.CellSpec

noncomputable section

open scoped BigOperators

namespace Cert.GraphConv

open Idealize.ShloMosaic Idealize.ShloMosaic.ValueIdx
open Cert.KernelIdeal Cert.KernelIdeal.Gen Cert.ReferenceIdeal.Read Cert.LibERealSum

/-! ## One grid point, over arbitrary blocks -/

/-- Row `r` of block `t` is global row `5000·t + r`. -/
def grow (t : Nat) (ht : t < 10) (r : Fin 5000) : Fin 50000 := ⟨t * 5000 + r.val, by have := r.isLt; omega⟩

section Point
variable (B0 : Vec Ideal S5000x128 .f32) (B1 : Vec Ideal S128x256 .f32) (B2 : Vec Ideal S1x256 .f32) (B3 : Vec Ideal S5000x64 .f32)
variable (x0 x1 x2 : FVec Ideal S50000x64 .f32) (x3 : FVec Ideal S256x128 .f32) (x4 : FVec Ideal S256 .f32)
variable (x5 : IVec S2x800000 32) (x6 : FVec Ideal S800000 .f32) (t : Nat) (ht : t < 10)

/-- The body's pre-activation on block `t` is the reference's `cc` on the block's rows. -/
theorem acc_eq_cc (h0 : ∀ r k, B0 (ix2 r k) = aggK x0 x1 x5 x6 (ix2 (grow t ht r) k))
    (h1 : ∀ k j, B1 (ix2 k j) = val_main_v1 (F := Ideal) x3 (ix2 k j))
    (h2 : ∀ j : Fin 256, B2 (ix2 (0 : Fin 1) j) = x4 (ix1 j))
    (hN : ∀ i, IsReal (val_main_v35 (F := Ideal) x5 x6 i)) (hC : ∀ i, IsReal (val_main_v0 (F := Ideal) x0 x1 i))
    (hW : ∀ i, IsReal (val_main_v1 (F := Ideal) x3 i)) (r : Fin 5000) (j : Fin 256) :
    k0_pay1 (F := Ideal) B0 B1 B2 (ix2 r j) = val_main_v51 (F := Ideal) x0 x1 x3 x4 x5 x6 (ix2 (grow t ht r) j) := by
  rw [acc_apply, h2, Finset.sum_congr rfl fun k _ => by rw [h0 r k, h1 k j]]
  exact projected_agg_eq_cc x0 x1 x3 x4 x5 x6 hN hC hW (grow t ht r) j

/-- What point `t` leaves in the cell-state window's block, entry by entry. -/
theorem block_c (h0 : ∀ r k, B0 (ix2 r k) = aggK x0 x1 x5 x6 (ix2 (grow t ht r) k))
    (h1 : ∀ k j, B1 (ix2 k j) = val_main_v1 (F := Ideal) x3 (ix2 k j))
    (h2 : ∀ j : Fin 256, B2 (ix2 (0 : Fin 1) j) = x4 (ix1 j))
    (h3 : ∀ r q, B3 (ix2 r q) = x2 (ix2 (grow t ht r) q))
    (hN : ∀ i, IsReal (val_main_v35 (F := Ideal) x5 x6 i)) (hC : ∀ i, IsReal (val_main_v0 (F := Ideal) x0 x1 i))
    (hW : ∀ i, IsReal (val_main_v1 (F := Ideal) x3 i)) (y : S5000x64.Idx) (r : Fin 5000) (q : Fin 64) (hy : y = ix2 r q) :
    Cert.KernelIdeal.Value.E5 (F := Ideal) B0 B1 B2 B3 y
      = cNext (val_main_v51 (F := Ideal) x0 x1 x3 x4 x5 x6) x2 (ix2 (grow t ht r) q) := by
  subst hy
  have hq : q.val < 64 := q.isLt
  have A := acc_eq_cc B0 B1 B2 x0 x1 x3 x4 x5 x6 t ht h0 h1 h2 hN hC hW r
  have e0 : Cert.KernelIdeal.Value.ix5_0 (ix2 r q) = ix2 r (⟨q.val + 64, by omega⟩ : Fin 256) := funext fun a => Fin.ext (by
    match a with
    | ⟨0, _⟩ => rfl
    | ⟨1, _⟩ => rfl)
  have e1 : Cert.KernelIdeal.Value.ix5_1 (ix2 r q) = ix2 r q := funext fun a => Fin.ext (by
    match a with
    | ⟨0, _⟩ => rfl
    | ⟨1, _⟩ => rfl)
  have e2 : Cert.KernelIdeal.Value.ix5_2 (ix2 r q) = ix2 r (⟨q.val + 0, by omega⟩ : Fin 256) := funext fun a => Fin.ext (by
    match a with
    | ⟨0, _⟩ => rfl
    | ⟨1, _⟩ => rfl)
  have e3 : Cert.KernelIdeal.Value.ix5_3 (ix2 r q) = ix2 r (⟨q.val + 192, by omega⟩ : Fin 256) := funext fun a => Fin.ext (by
    match a with
    | ⟨0, _⟩ => rfl
    | ⟨1, _⟩ => rfl)
  show FloatOps.addf (FloatOps.mulf (FloatOps.logistic (k0_pay1 (F := Ideal) B0 B1 B2 (Cert.KernelIdeal.Value.ix5_0 (ix2 r q))))
      (B3 (Cert.KernelIdeal.Value.ix5_1 (ix2 r q))))
    (FloatOps.mulf (FloatOps.logistic (k0_pay1 (F := Ideal) B0 B1 B2 (Cert.KernelIdeal.Value.ix5_2 (ix2 r q))))
      (FloatOps.tanh (k0_pay1 (F := Ideal) B0 B1 B2 (Cert.KernelIdeal.Value.ix5_3 (ix2 r q))))) = _
  rw [e0, e1, e2, e3, A, A, A, h3]
  rfl

/-- What point `t` leaves in the hidden-state window's block, entry by entry. -/
theorem block_h (h0 : ∀ r k, B0 (ix2 r k) = aggK x0 x1 x5 x6 (ix2 (grow t ht r) k))
    (h1 : ∀ k j, B1 (ix2 k j) = val_main_v1 (F := Ideal) x3 (ix2 k j))
    (h2 : ∀ j : Fin 256, B2 (ix2 (0 : Fin 1) j) = x4 (ix1 j))
    (h3 : ∀ r q, B3 (ix2 r q) = x2 (ix2 (grow t ht r) q))
    (hN : ∀ i, IsReal (val_main_v35 (F := Ideal) x5 x6 i)) (hC : ∀ i, IsReal (val_main_v0 (F := Ideal) x0 x1 i))
    (hW : ∀ i, IsReal (val_main_v1 (F := Ideal) x3 i)) (y : S5000x64.Idx) (r : Fin 5000) (q : Fin 64) (hy : y = ix2 r q) :
    Cert.KernelIdeal.Value.E4 (F := Ideal) B0 B1 B2 B3 y
      = hNext (val_main_v51 (F := Ideal) x0 x1 x3 x4 x5 x6) x2 (ix2 (grow t ht r) q) := by
  subst hy
  have hq : q.val < 64 := q.isLt
  have A := acc_eq_cc B0 B1 B2 x0 x1 x3 x4 x5 x6 t ht h0 h1 h2 hN hC hW r
  have e0 : Cert.KernelIdeal.Value.ix4_0 (ix2 r q) = ix2 r (⟨q.val + 128, by omega⟩ : Fin 256) := funext fun a => Fin.ext (by
    match a with
    | ⟨0, _⟩ => rfl
    | ⟨1, _⟩ => rfl)
  have e1 : Cert.KernelIdeal.Value.ix4_1 (ix2 r q) = ix2 r (⟨q.val + 64, by omega⟩ : Fin 256) := funext fun a => Fin.ext (by
    match a with
    | ⟨0, _⟩ => rfl
    | ⟨1, _⟩ => rfl)
  have e2 : Cert.KernelIdeal.Value.ix4_2 (ix2 r q) = ix2 r q := funext fun a => Fin.ext (by
    match a with
    | ⟨0, _⟩ => rfl
    | ⟨1, _⟩ => rfl)
  have e3 : Cert.KernelIdeal.Value.ix4_3 (ix2 r q) = ix2 r (⟨q.val + 0, by omega⟩ : Fin 256) := funext fun a => Fin.ext (by
    match a with
    | ⟨0, _⟩ => rfl
    | ⟨1, _⟩ => rfl)
  have e4 : Cert.KernelIdeal.Value.ix4_4 (ix2 r q) = ix2 r (⟨q.val + 192, by omega⟩ : Fin 256) := funext fun a => Fin.ext (by
    match a with
    | ⟨0, _⟩ => rfl
    | ⟨1, _⟩ => rfl)
  show FloatOps.mulf (FloatOps.logistic (k0_pay1 (F := Ideal) B0 B1 B2 (Cert.KernelIdeal.Value.ix4_0 (ix2 r q))))
    (FloatOps.tanh (FloatOps.addf
      (FloatOps.mulf (FloatOps.logistic (k0_pay1 (F := Ideal) B0 B1 B2 (Cert.KernelIdeal.Value.ix4_1 (ix2 r q))))
        (B3 (Cert.KernelIdeal.Value.ix4_2 (ix2 r q))))
      (FloatOps.mulf (FloatOps.logistic (k0_pay1 (F := Ideal) B0 B1 B2 (Cert.KernelIdeal.Value.ix4_3 (ix2 r q))))
        (FloatOps.tanh (k0_pay1 (F := Ideal) B0 B1 B2 (Cert.KernelIdeal.Value.ix4_4 (ix2 r q))))))) = _
  rw [e0, e1, e2, e3, e4, A, A, A, A, h3]
  rfl

end Point

end Cert.GraphConv

end
-- ==== Proof.LibRowOfVec.lean ====
/-
  A vector laid out as a single row.

  A host `reshape` of a vector of `a` entries to the shape `[1, a]` keeps the entries in order: entry `(0, i)` of the row is
  entry `i` of the vector (`row_of_vec_apply`). It is the row twin of the column form `[a] → [a, 1]`.
-/
import Idealize.ShloMosaic.Lib.Pipeline.Value
import Idealize.ShloMosaic.Lib.ValueIdx

noncomputable section

namespace Cert.LibRowOfVec

open Idealize.ShloMosaic Idealize.ShloMosaic.ValueIdx

/-- A vector `[a]` cast to a row `[1, a]`: entry (u, i) is the vector's entry i. -/
theorem row_of_vec_apply {a : Nat} {α : Type} (x : (⟨1, ![a]⟩ : Shape).Idx → α)
    (h : (⟨1, ![a]⟩ : Shape).ShapeCasts ⟨2, ![1, a]⟩) (u : Fin 1) (i : Fin a) :
    shapeCast ⟨2, ![1, a]⟩ x h (ix2 u i) = x (ix1 i) :=
  shapeCast_apply x h _ _ (by
    have hu : u.val = 0 := by omega
    rw [Shape.rowMajor_val_one, Shape.rowMajor_val_two]
    show i.val = u.val * a + i.val
    rw [hu, Nat.zero_mul, Nat.zero_add])

end Cert.LibRowOfVec

end
-- ==== Proof.KerValue.lean ====
/-
  The kernel's two result arrays as whole-array functions of the arguments.

  The kernel computes the LSTM cell ten row blocks of 5000 rows at a time. Grid point `t` stages rows
  `5000·t … 5000·t + 4999` of the aggregated features and of `c_t`, the whole transposed matrix and the bias row (the
  printed index maps, decided over the ten points); entry `(r, q)` of what it writes back is the cell of the reference's
  pre-activation `cc` at global row `5000·t + r`. The ten blocks tile both result arrays (row `n` lies in block
  `n / 5000`), so after the run each array holds the cell everywhere: `h_next` in the first, `c_next` in the second.
-/
import proofs.«153381_j6794638262633_2_alg».proof.Proof.Gen.KernelIdeal.Value
import proofs.«153381_j6794638262633_2_alg».proof.Proof.KerHost
import proofs.«153381_j6794638262633_2_alg».proof.Proof.KerPoint
import proofs.«153381_j6794638262633_2_alg».proof.Proof.LibRowOfVec
import Idealize.ShloMosaic.Lib.Pipeline.Value

noncomputable section

open scoped BigOperators

namespace Cert.GraphConv

open Idealize.ShloMosaic Idealize.ShloMosaic.TcCoe Idealize.SL.Sem Idealize.ShloMosaic.ValueIdx
open Idealize.ShloMosaic.Pipeline (Dat)
open Cert.KernelIdeal Cert.KernelIdeal.Gen Cert.ReferenceIdeal.Read Cert.LibERealSum

/-! ## The blocks the windows stage -/

section Blocks
variable {F : FTy → Type} [FloatOps F]
variable (m : (ℓ : Loc nD τ sig) → Buf (Elt F) ℓ)

theorem hz : (![0, 0] : Fin 2 → Nat) = fun _ => 0 := funext fun a => by fin_cases a <;> rfl

/-- A grid point is one of ten. -/
theorem lt10 (t : Fin cfg0.N) : t.val < 10 := by
  have h := t.isLt
  have hN : cfg0.N = 10 := N_0
  omega

/-- The printed index maps over the grid: the row-blocked windows move with the point, the resident ones stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The arguments on core `c`. -/
abbrev A0 (c : Dev nD) : FVec F S50000x64 .f32 := m ((c : Thread nD τ).loc main_arg0)
abbrev A1 (c : Dev nD) : FVec F S50000x64 .f32 := m ((c : Thread nD τ).loc main_arg1)
abbrev A2 (c : Dev nD) : FVec F S50000x64 .f32 := m ((c : Thread nD τ).loc main_arg2)
abbrev A3 (c : Dev nD) : FVec F S256x128 .f32 := m ((c : Thread nD τ).loc main_arg3)
abbrev A4 (c : Dev nD) : FVec F S256 .f32 := m ((c : Thread nD τ).loc main_arg4)
abbrev A5 (c : Dev nD) : IVec S2x800000 32 := m ((c : Thread nD τ).loc main_arg5)
abbrev A6 (c : Dev nD) : FVec F S800000 .f32 := m ((c : Thread nD τ).loc main_arg6)

/-- Window 0's block at point `t`: rows `5000·t …` of the aggregated features. -/
theorem iblk0_apply (c : Dev nD) (t : Fin cfg0.N) (r : Fin 5000) (k : Fin 128) :
    (iblk m c 0 t : Vec F S5000x128 .f32) (ix2 r k)
      = aggK (A0 m c) (A1 m c) (A5 m c) (A6 m c) (ix2 (grow t.val (lt10 t) r) k) := by
  obtain ⟨e0, e1, -⟩ := idx_facts t
  rw [← V_agg m c]
  unfold iblk
  rw [View.read_apply]
  show V m c main_v46 _ = V m c main_v46 _
  refine congrArg _ (funext fun a => Fin.ext ?_)
  match a with
  | ⟨0, _⟩ =>
    show win0_0.index t (0 : Fin 2) * 5000 + 1 * r.val = t.val * 5000 + r.val
    rw [e0]; omega
  | ⟨1, _⟩ =>
    show win0_0.index t (1 : Fin 2) * 128 + 1 * k.val = k.val
    rw [e1]; omega

/-- Window 1's block at any point: the whole transposed matrix. -/
theorem iblk1_apply (c : Dev nD) (t : Fin cfg0.N) (k : Fin 128) (j : Fin 256) :
    (iblk m c 1 t : Vec F S128x256 .f32) (ix2 k j) = val_main_v1 (F := F) (A3 m c) (ix2 k j) := by
  obtain ⟨-, -, e0, e1, -⟩ := idx_facts t
  rw [← V_wt m c]
  unfold iblk
  rw [View.read_apply]
  show V m c main_v47 _ = V m c main_v47 _
  refine congrArg _ (funext fun a => Fin.ext ?_)
  match a with
  | ⟨0, _⟩ =>
    show win0_1.index t (0 : Fin 2) * 128 + 1 * k.val = k.val
    rw [e0]; omega
  | ⟨1, _⟩ =>
    show win0_1.index t (1 : Fin 2) * 256 + 1 * j.val = j.val
    rw [e1]; omega

/-- Window 2's block at any point: the bias row. -/
theorem iblk2_apply (c : Dev nD) (t : Fin cfg0.N) (j : Fin 256) :
    (iblk m c 2 t : Vec F S1x256 .f32) (ix2 (0 : Fin 1) j) = A4 m c (ix1 j) := by
  obtain ⟨-, -, -, -, e0, e1, -⟩ := idx_facts t
  rw [← Cert.LibRowOfVec.row_of_vec_apply (A4 m c) shapeCasts_S256_S1x256 (0 : Fin 1) j]
  have hV := V_bias m c
  unfold iblk
  rw [View.read_apply]
  show V m c main_v48 _ = _
  rw [hV]
  refine congrArg _ (funext fun a => Fin.ext ?_)
  match a with
  | ⟨0, _⟩ =>
    show win0_2.index t (0 : Fin 2) * 1 + 1 * 0 = 0
    rw [e0]
  | ⟨1, _⟩ =>
    show win0_2.index t (1 : Fin 2) * 256 + 1 * j.val = j.val
    rw [e1]; omega

/-- Window 3's block at point `t`: rows `5000·t …` of the previous cell state. -/
theorem iblk3_apply (c : Dev nD) (t : Fin cfg0.N) (r : Fin 5000) (q : Fin 64) :
    (iblk m c 3 t : Vec F S5000x64 .f32) (ix2 r q) = A2 m c (ix2 (grow t.val (lt10 t) r) q) := by
  obtain ⟨-, -, -, -, -, -, e0, e1, -⟩ := idx_facts t
  have hV : (V m c main_arg2 : S50000x64.Idx → F .f32) = A2 m c := V_main_arg2 m c
  rw [← hV]
  unfold iblk
  rw [View.read_apply]
  show V m c main_arg2 _ = V m c main_arg2 _
  refine congrArg _ (funext fun a => Fin.ext ?_)
  match a with
  | ⟨0, _⟩ =>
    show win0_3.index t (0 : Fin 2) * 5000 + 1 * r.val = t.val * 5000 + r.val
    rw [e0]; omega
  | ⟨1, _⟩ =>
    show win0_3.index t (1 : Fin 2) * 64 + 1 * q.val = q.val
    rw [e1]; omega

/-- What point `t` writes back to the cell-state window, as the body's block function of the four staged blocks. -/
theorem flushed5_blocks (c : Dev nD) (t : Fin cfg0.N) :
    (dats m 0 c).flushed 5 t
      = fun y => Cert.KernelIdeal.Value.E5 (iblk m c 0 t) (iblk m c 1 t) (iblk m c 2 t) (iblk m c 3 t) y := by
  rw [Cert.KernelIdeal.Value.flushed5]
  unfold out0_5
  simp only [View.ld_unit_zero (S := S5000x128) hz, View.ld_unit_zero (S := S128x256) hz,
    View.ld_unit_zero (S := S1x256) hz, View.ld_unit_zero (S := S5000x64) hz]
  funext y
  exact Cert.KernelIdeal.Value.canon5_eq (iblk m c 0 t) (iblk m c 1 t) (iblk m c 2 t) (iblk m c 3 t) y

/-- What point `t` writes back to the hidden-state window, as the body's block function of the four staged blocks. -/
theorem flushed4_blocks (c : Dev nD) (t : Fin cfg0.N) :
    (dats m 0 c).flushed 4 t
      = fun y => Cert.KernelIdeal.Value.E4 (iblk m c 0 t) (iblk m c 1 t) (iblk m c 2 t) (iblk m c 3 t) y := by
  rw [Cert.KernelIdeal.Value.flushed4]
  unfold out0_4
  simp only [View.ld_unit_zero (S := S5000x128) hz, View.ld_unit_zero (S := S128x256) hz,
    View.ld_unit_zero (S := S1x256) hz, View.ld_unit_zero (S := S5000x64) hz]
  funext y
  exact Cert.KernelIdeal.Value.canon4_eq (iblk m c 0 t) (iblk m c 1 t) (iblk m c 2 t) (iblk m c 3 t) y

/-- Block `t` of a state array, read through the cell-state window: rows `5000·t …`. -/
theorem read_block5 (G : S50000x64.Idx → F .f32) (t : Fin cfg0.N) :
    ((cfg0.win 5).blk t).view.read (Elt F) G = fun y => G (ix2 (grow t.val (lt10 t) (y 0)) (y 1)) := by
  obtain ⟨-, -, -, -, -, -, -, -, -, -, e0, e1⟩ := idx_facts t
  funext y
  rw [View.read_apply]
  refine congrArg G (funext fun a => Fin.ext ?_)
  match a with
  | ⟨0, _⟩ =>
    show win0_5.index t (0 : Fin 2) * 5000 + 1 * (y 0).val = t.val * 5000 + (y 0).val
    rw [e0]; omega
  | ⟨1, _⟩ =>
    show win0_5.index t (1 : Fin 2) * 64 + 1 * (y 1).val = (y 1).val
    rw [e1]; omega

/-- Block `t` of a state array, read through the hidden-state window: rows `5000·t …`. -/
theorem read_block4 (G : S50000x64.Idx → F .f32) (t : Fin cfg0.N) :
    ((cfg0.win 4).blk t).view.read (Elt F) G = fun y => G (ix2 (grow t.val (lt10 t) (y 0)) (y 1)) := by
  obtain ⟨-, -, -, -, -, -, -, -, e0, e1, -⟩ := idx_facts t
  funext y
  rw [View.read_apply]
  refine congrArg G (funext fun a => Fin.ext ?_)
  match a with
  | ⟨0, _⟩ =>
    show win0_4.index t (0 : Fin 2) * 5000 + 1 * (y 0).val = t.val * 5000 + (y 0).val
    rw [e0]; omega
  | ⟨1, _⟩ =>
    show win0_4.index t (1 : Fin 2) * 64 + 1 * (y 1).val = (y 1).val
    rw [e1]; omega

end Blocks

/-! ## What each point writes back, and the arrays after the run -/

section Final
variable (m : (ℓ : Loc nD τ sig) → Buf (Elt Ideal) ℓ) (ρ : Dev nD → PrngReg)
variable (c : Dev nD)
variable (hN : ∀ i, IsReal (val_main_v35 (F := Ideal) (A5 m c) (A6 m c) i))
variable (hC : ∀ i, IsReal (val_main_v0 (F := Ideal) (A0 m c) (A1 m c) i))
variable (hW : ∀ i, IsReal (val_main_v1 (F := Ideal) (A3 m c) i))

/-- The reference's pre-activation of the arguments on core `c`. -/
abbrev CC : SGates.Idx → EReal :=
  val_main_v51 (F := Ideal) (A0 m c) (A1 m c) (A3 m c) (A4 m c) (A5 m c) (A6 m c)

include hN hC hW in
/-- Point `t` writes back block `t` of the next cell state. -/
theorem flushed5_eq (t : Fin cfg0.N) :
    (dats m 0 c).flushed 5 t = ((cfg0.win 5).blk t).view.read (Elt Ideal) (cNext (CC m c) (A2 m c)) := by
  rw [flushed5_blocks m c t]
  refine Eq.trans ?_ (read_block5 (F := Ideal) (cNext (CC m c) (A2 m c)) t).symm
  funext y
  exact block_c (iblk m c 0 t) (iblk m c 1 t) (iblk m c 2 t) (iblk m c 3 t) (A0 m c) (A1 m c) (A2 m c) (A3 m c) (A4 m c)
    (A5 m c) (A6 m c) t.val (lt10 t) (iblk0_apply m c t) (iblk1_apply m c t) (iblk2_apply m c t) (iblk3_apply m c t)
    hN hC hW y (y 0) (y 1) (eq_ix2 y)

include hN hC hW in
/-- Point `t` writes back block `t` of the next hidden state. -/
theorem flushed4_eq (t : Fin cfg0.N) :
    (dats m 0 c).flushed 4 t = ((cfg0.win 4).blk t).view.read (Elt Ideal) (hNext (CC m c) (A2 m c)) := by
  rw [flushed4_blocks m c t]
  refine Eq.trans ?_ (read_block4 (F := Ideal) (hNext (CC m c) (A2 m c)) t).symm
  funext y
  exact block_h (iblk m c 0 t) (iblk m c 1 t) (iblk m c 2 t) (iblk m c 3 t) (A0 m c) (A1 m c) (A2 m c) (A3 m c) (A4 m c)
    (A5 m c) (A6 m c) t.val (lt10 t) (iblk0_apply m c t) (iblk1_apply m c t) (iblk2_apply m c t) (iblk3_apply m c t)
    hN hC hW y (y 0) (y 1) (eq_ix2 y)

/-- Every index of a result array lies in the block of the point `row / 5000`. -/
theorem cover5 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN10 : cfg0.N = 10 := N_0
  let t : Fin cfg0.N := ⟨(i 0).val / 5000, by rw [hN10]; omega⟩
  obtain ⟨-, -, -, -, -, -, -, -, -, -, e0, e1⟩ := idx_facts t
  have ht : t.val = (i 0).val / 5000 := rfl
  refine ⟨t, flush0_5 t, ?_⟩
  show i ∈ ((View.whole main_v49_1).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 64 ≤ (i 1).val ∧ (i 1).val < win0_5.index t (1 : Fin 2) * 64 + 64
    rw [e1]; omega

theorem cover4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN10 : cfg0.N = 10 := N_0
  let t : Fin cfg0.N := ⟨(i 0).val / 5000, by rw [hN10]; omega⟩
  obtain ⟨-, -, -, -, -, -, -, -, e0, e1, -⟩ := idx_facts t
  have ht : t.val = (i 0).val / 5000 := rfl
  refine ⟨t, flush0_4 t, ?_⟩
  show i ∈ ((View.whole main_v49_0).slice (win0_4.rect t)).set
  rw [View.set_slice_whole, Rect.mem_set_unit]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 64 ≤ (i 1).val ∧ (i 1).val < win0_4.index t (1 : Fin 2) * 64 + 64
    rw [e1]; omega

include hN hC hW in
/-- After the run the second result array holds the next cell state. -/
theorem final5 : (dats m 0 c).arrAt 5 cfg0.N = cNext (CC m c) (A2 m c) :=
  (dats m 0 c).arrAt_eq_of_cover 5 (cNext (CC m c) (A2 m c)) (fun t _ => flushed5_eq m c hN hC hW t) cover5

include hN hC hW in
/-- After the run the first result array holds the next hidden state. -/
theorem final4 : (dats m 0 c).arrAt 4 cfg0.N = hNext (CC m c) (A2 m c) :=
  (dats m 0 c).arrAt_eq_of_cover 4 (hNext (CC m c) (A2 m c)) (fun t _ => flushed4_eq m c hN hC hW t) cover4

end Final

end Cert.GraphConv

end
-- ==== Proof.LibRealOps.lean ====
/-
  Which host operations keep an array of extended reals inside the real numbers.

  An entry of an extended-real array is either a real number or one of the two infinities. The operations that only
  move entries — a gather, a broadcast, a transpose, a concatenation — read every result entry off some operand entry,
  so a real-valued operand gives a real-valued result. An accumulating scatter adds, onto an operand entry, a finite
  sum of update entries: real when both arrays are. The normalising factor of a graph convolution,
      dinv = where(deg > 0, rsqrt(deg), 0),
  is real wherever the degree is: a positive real has a real reciprocal square root, and elsewhere the factor is 0.
  The words 0x00000000 and 0x3F800000 are the numbers 0 and 1.
-/
import Idealize.ShloMosaic.PureOps.Ideal
import Idealize.ShloMosaic.PureOps.Ideal.Laws
import Idealize.ShloMosaic.PureOps.IdealRules
import Idealize.ShloMosaic.Lib.Pipeline.Value
import Idealize.ShloMosaic.Lib.ValueIdx
import proofs.«153381_j6794638262633_2_alg».proof.Proof.LibERealSum

noncomputable section

open scoped BigOperators

namespace Cert.RealOps

open Idealize.ShloMosaic Idealize.ShloMosaic.ValueIdx Cert.LibERealSum

/-! ## Operations that move entries -/

/-- A gather reads each result entry off an operand entry. -/
theorem gather_real {s si t : Shape} {w : Nat} (d : GatherDims s si t) (x : s.Idx → EReal) (idx : IVec si w)
    (h : ∀ i, IsReal (x i)) (j : t.Idx) : IsReal (Host.gather d x idx j) := h _

/-- A broadcast reads each result entry off an operand entry. -/
theorem broadcastInDim_real {s t : Shape} (dims : Fin s.rank → Fin t.rank) (hb : s.BroadcastsInDim t dims)
    (x : s.Idx → EReal) (h : ∀ i, IsReal (x i)) (j : t.Idx) : IsReal (broadcastInDim t dims hb x j) := h _

/-- A transpose reads each result entry off an operand entry. -/
theorem transpose_real {s t : Shape} (perm : List (Fin s.rank)) (x : s.Idx → EReal) (ht : s.Transposes perm t)
    (h : ∀ i, IsReal (x i)) (j : t.Idx) : IsReal (transpose t perm x ht j) := h _

/-! ## The two constants -/

/-- The word `0x3F800000` is the number one. -/
theorem one_f32 : Ideal.ofBits .f32 0x3F800000#32 = 1 := IdealRules.sign_bit.ideal_onePat .f32

/-- The splat of the word for one is real-valued. -/
theorem constant_one_real {s : Shape} (j : s.Idx) : IsReal (constant (F := Ideal) s .f32 0x3F800000#32 j) := by
  show IsReal (Ideal.ofBits .f32 0x3F800000#32)
  rw [one_f32]
  exact ⟨1, rfl⟩

/-- The splat of the zero word is the number zero. -/
theorem constant_zero_apply {s : Shape} (j : s.Idx) : constant (F := Ideal) s .f32 0x00000000#32 j = 0 :=
  Ideal.ofBits_zero_f32

/-! ## An accumulating scatter -/

/-- A scatter-add leaves, at each entry, the operand's entry plus a finite sum of update entries. -/
theorem scatterAdd_real {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

/-! ## Two arrays joined end to end -/

/-- 800000 entries followed by 50000: every entry of the joined vector is an entry of one of the two. -/
theorem concat_vec_real (x₁ : (⟨1, ![800000]⟩ : Shape).Idx → EReal) (x₂ : (⟨1, ![50000]⟩ : Shape).Idx → EReal)
    (h : Shape.Concatenates [(⟨1, ![800000]⟩ : Shape), ⟨1, ![50000]⟩] ⟨1, ![850000]⟩ 0)
    (h1 : ∀ i, IsReal (x₁ i)) (h2 : ∀ i, IsReal (x₂ i)) (j : (⟨1, ![850000]⟩ : Shape).Idx) :
    IsReal (concatenate ⟨1, ![850000]⟩ 0 [⟨⟨1, ![800000]⟩, x₁⟩, ⟨⟨1, ![50000]⟩, x₂⟩] h j) := by
  have hj : (j 0).val < 850000 := (j 0).isLt
  by_cases hc : (j 0).val < 800000
  · rw [concatenate_pair_apply_left 0 x₁ x₂ h j rfl (ix1 ⟨(j 0).val, hc⟩) (fun b => by
      match b with
      | ⟨0, _⟩ => rfl)]
    exact h1 _
  · rw [concatenate_pair_apply_right 0 x₁ x₂ h j rfl rfl (ix1 ⟨(j 0).val - 800000, by omega⟩) (fun b hb => by
      match b with
      | ⟨0, _⟩ => exact absurd rfl hb) (by
      show (j 0).val - 800000 + 800000 = (j 0).val
      omega)]
    exact h2 _

/-- Two blocks of 64 columns side by side: every entry of the joined matrix is an entry of one of the two. -/
theorem concat_cols_real (x₁ x₂ : (⟨2, ![50000, 64]⟩ : Shape).Idx → EReal)
    (h : Shape.Concatenates [(⟨2, ![50000, 64]⟩ : Shape), ⟨2, ![50000, 64]⟩] ⟨2, ![50000, 128]⟩ 1)
    (h1 : ∀ i, IsReal (x₁ i)) (h2 : ∀ i, IsReal (x₂ i)) (j : (⟨2, ![50000, 128]⟩ : Shape).Idx) :
    IsReal (concatenate ⟨2, ![50000, 128]⟩ 1 [⟨⟨2, ![50000, 64]⟩, x₁⟩, ⟨⟨2, ![50000, 64]⟩, x₂⟩] h j) := by
  have hj : (j 1).val < 128 := (j 1).isLt
  by_cases hc : (j 1).val < 64
  · rw [concatenate_pair_apply_left 1 x₁ x₂ h j rfl (ix2 (j 0) ⟨(j 1).val, hc⟩) (fun b => by
      match b with
      | ⟨0, _⟩ => rfl
      | ⟨1, _⟩ => rfl)]
    exact h1 _
  · rw [concatenate_pair_apply_right 1 x₁ x₂ h j rfl rfl (ix2 (j 0) ⟨(j 1).val - 64, by omega⟩) (fun b hb => by
      match b with
      | ⟨0, _⟩ => rfl
      | ⟨1, _⟩ => exact absurd rfl hb) (by
      show (j 1).val - 64 + 64 = (j 1).val
      omega)]
    exact h2 _

/-! ## The normalising factor -/

/-- `where(d > z, rsqrt d, b)` at one entry, for a real degree `d`, the zero `z` and a real filler `b`: real. -/
theorem where_rsqrt_real (d z b : EReal) (hd : IsReal d) (hz : z = 0) (hb : IsReal b) :
    IsReal (Scalar.select (FloatOps.cmpf (F := Ideal) (φ := .f32) .ogt d z) (FloatOps.hostUnary (F := Ideal) (φ := .f32) .rsqrt d) b) := by
  obtain ⟨r, rfl⟩ := hd
  subst hz
  unfold Scalar.select
  split
  · rename_i hc
    have hpos : (0 : EReal) < (r : EReal) := by
      by_contra hn
      have h2 : FloatOps.cmpf (F := Ideal) (φ := .f32) .ogt (r : EReal) 0 = BitVec.ofBool (decide ((0 : EReal) < (r : EReal))) := rfl
      rw [h2, decide_eq_false hn] at hc
      exact absurd hc (by decide)
    have hr : 0 < r := by exact_mod_cast hpos
    show IsReal (Ideal.rsqrt (r : EReal))
    have : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [this]
    exact ⟨_, rfl⟩
  · exact hb

end Cert.RealOps

end
-- ==== Proof.RefGate.lean ====
/-
  The reference's two results are the LSTM cell of its own pre-activation.

  After the pre-activation `cc` the reference slices the four gates out of its 256 columns, applies `1 / (1 + exp(−·))` to
  three of them and `tanh` to the fourth, and combines them with the previous cell state. At the extended reals
  `1 / (1 + exp(−z))` IS the logistic function and the word `0x3F800000` is the number one, so entry by entry the two
  results are the cell's `h_next` and `c_next` of `cc`.
-/
import proofs.«153381_j6794638262633_2_alg».proof.Proof.Gen.ReferenceIdeal.Read
import proofs.«153381_j6794638262633_2_alg».proof.Proof.CellSpec
import proofs.«153381_j6794638262633_2_alg».proof.Proof.LibRealOps

noncomputable section

namespace Cert.GraphConv

open Idealize.ShloMosaic Idealize.ShloMosaic.ValueIdx Cert.ReferenceIdeal Cert.ReferenceIdeal.Read

section
variable (x0 x1 x2 : FVec Ideal S50000x64 .f32) (x3 : FVec Ideal S256x128 .f32) (x4 : FVec Ideal S256 .f32)
variable (x5 : IVec S2x800000 32) (x6 : FVec Ideal S800000 .f32)

/-- `1 / (1 + exp(−z))`, with both ones the word `0x3F800000`, is the logistic function of `z`. -/
theorem sigmoid_eq (z : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) z)))
      = FloatOps.logistic (F := Ideal) (φ := .f32) z := by
  rw [Cert.RealOps.one_f32]
  rfl

/-- The four slices read the pre-activation at the four gate offsets. -/
theorem idx52 (i : S50000x64.Idx) : idx_main_v52 i = gateIx 0 (by norm_num) i := funext fun a => Fin.ext (by
  match a with
  | ⟨0, _⟩ => rfl
  | ⟨1, _⟩ => rfl)
theorem idx53 (i : S50000x64.Idx) : idx_main_v53 i = gateIx 64 (by norm_num) i := funext fun a => Fin.ext (by
  match a with
  | ⟨0, _⟩ => rfl
  | ⟨1, _⟩ =>
    show 64 + (i 1).val = (i 1).val + 64
    omega)
theorem idx54 (i : S50000x64.Idx) : idx_main_v54 i = gateIx 128 (by norm_num) i := funext fun a => Fin.ext (by
  match a with
  | ⟨0, _⟩ => rfl
  | ⟨1, _⟩ =>
    show 128 + (i 1).val = (i 1).val + 128
    omega)
theorem idx55 (i : S50000x64.Idx) : idx_main_v55 i = gateIx 192 (by norm_num) i := funext fun a => Fin.ext (by
  match a with
  | ⟨0, _⟩ => rfl
  | ⟨1, _⟩ =>
    show 192 + (i 1).val = (i 1).val + 192
    omega)

/-- The forget gate of the reference at an entry. -/
theorem gate_f_apply (i : S50000x64.Idx) :
    val_main_v67 (F := Ideal) x0 x1 x3 x4 x5 x6 i
      = FloatOps.logistic (F := Ideal) (φ := .f32) (val_main_v51 (F := Ideal) x0 x1 x3 x4 x5 x6 (gateIx 64 (by norm_num) i)) := by
  rw [val_main_v67_apply, val_main_v65_apply, val_main_v63_apply, val_main_v62_apply, val_main_v53_apply, idx53]
  exact sigmoid_eq _

/-- The input gate of the reference at an entry. -/
theorem gate_i_apply (i : S50000x64.Idx) :
    val_main_v61 (F := Ideal) x0 x1 x3 x4 x5 x6 i
      = FloatOps.logistic (F := Ideal) (φ := .f32) (val_main_v51 (F := Ideal) x0 x1 x3 x4 x5 x6 (gateIx 0 (by norm_num) i)) := by
  rw [val_main_v61_apply, val_main_v59_apply, val_main_v57_apply, val_main_v56_apply, val_main_v52_apply, idx52]
  exact sigmoid_eq _

/-- The output gate of the reference at an entry. -/
theorem gate_o_apply (i : S50000x64.Idx) :
    val_main_v73 (F := Ideal) x0 x1 x3 x4 x5 x6 i
      = FloatOps.logistic (F := Ideal) (φ := .f32) (val_main_v51 (F := Ideal) x0 x1 x3 x4 x5 x6 (gateIx 128 (by norm_num) i)) := by
  rw [val_main_v73_apply, val_main_v71_apply, val_main_v69_apply, val_main_v68_apply, val_main_v54_apply, idx54]
  exact sigmoid_eq _

/-- The candidate of the reference at an entry. -/
theorem gate_g_apply (i : S50000x64.Idx) :
    val_main_v74 (F := Ideal) x0 x1 x3 x4 x5 x6 i
      = FloatOps.tanh (F := Ideal) (φ := .f32) (val_main_v51 (F := Ideal) x0 x1 x3 x4 x5 x6 (gateIx 192 (by norm_num) i)) := by
  rw [val_main_v74_apply, val_main_v55_apply, idx55]
  rfl

/-- The reference's second result is the next cell state of its pre-activation. -/
theorem ref_c : val_main_v77 (F := Ideal) x0 x1 x2 x3 x4 x5 x6 = cNext (val_main_v51 (F := Ideal) x0 x1 x3 x4 x5 x6) x2 := by
  funext i
  rw [val_main_v77_apply, val_main_v75_apply, val_main_v76_apply, gate_f_apply, gate_i_apply, gate_g_apply]
  rfl

/-- The reference's first result is the next hidden state of its pre-activation. -/
theorem ref_h : val_main_v79 (F := Ideal) x0 x1 x2 x3 x4 x5 x6 = hNext (val_main_v51 (F := Ideal) x0 x1 x3 x4 x5 x6) x2 := by
  funext i
  rw [val_main_v79_apply, val_main_v78_apply, gate_o_apply, ref_c]
  rfl

end

end Cert.GraphConv

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.Reals.lean ====
/-
  From finite inputs to real-valued edge weights, features and matrix.

  The law that lets the projection move across the aggregation holds over the real numbers, so every array it touches
  must be free of infinities. The precondition gives that for the inputs `x`, `h_t`, `W` and `edge_attr`. From there:
  the combined features `[x, h_t]` and the transposed matrix only re-lay real entries; the extended edge weights
  `w = [edge_attr, 1, …, 1]` are real; each weighted degree is a finite sum of them, hence real; the factor
  `dinv = where(deg > 0, rsqrt(deg), 0)` is then real at every node; and the symmetric normalisation
  `norm = dinv[row] · w · dinv[col]` is a product of three reals, whichever rows the index words select.
-/
import proofs.«153381_j6794638262633_2_alg».proof.Proof.Gen.ReferenceIdeal.Read
import proofs.«153381_j6794638262633_2_alg».proof.Proof.Gen.Pre_finite_inputs
import proofs.«153381_j6794638262633_2_alg».proof.Proof.LibFiniteInputs
import proofs.«153381_j6794638262633_2_alg».proof.Proof.LibRealOps

noncomputable section

namespace Cert.GraphConv

open Idealize.ShloMosaic Cert.LibERealSum Cert.RealOps

section FromPrecondition
open Cert.Pre_finite_inputs Cert.LibFiniteInputs

/-- The printed precondition, six `jnp.all(|·| < +inf)` joined by `and`, coming out 1: the four arrays the law needs
    hold real numbers throughout. -/
theorem reals_of_pre (a0 a1 a2 : FVec Ideal S50000x64 .f32) (a3 : FVec Ideal S256x128 .f32) (a4 : FVec Ideal S256 .f32)
    (a5 : IVec S2x800000 32) (a6 : FVec Ideal S800000 .f32)
    (h : Cert.Pre_finite_inputs.fn (F := Ideal) a0 a1 a2 a3 a4 a5 a6 = fun _ => 1#1) :
    (∀ i, IsReal (a0 i)) ∧ (∀ i, IsReal (a1 i)) ∧ (∀ i, IsReal (a3 i)) ∧ (∀ i, IsReal (a6 i)) := by
  have h0 := congrFun h ValueIdx.ix0
  dsimp only [fn, fn_part1] at h0
  have h1 : IntOp.andi _ _ = 1#1 := h0
  obtain ⟨h1a, e6⟩ := IntOp.andi_eq_one.mp h1
  have h2 : IntOp.andi _ _ = 1#1 := h1a
  obtain ⟨h2a, e4⟩ := IntOp.andi_eq_one.mp h2
  have h3 : IntOp.andi _ _ = 1#1 := h2a
  obtain ⟨h3a, e3⟩ := IntOp.andi_eq_one.mp h3
  have h4 : IntOp.andi _ _ = 1#1 := h3a
  obtain ⟨h4a, e2⟩ := IntOp.andi_eq_one.mp h4
  have h5 : IntOp.andi _ _ = 1#1 := h4a
  obtain ⟨e0, e1⟩ := IntOp.andi_eq_one.mp h5
  exact ⟨all_real a0 _ _ _ e0, all_real a1 _ _ _ e1, all_real a3 _ _ _ e3, all_real a6 _ _ _ e6⟩

end FromPrecondition

section Stages
open Cert.ReferenceIdeal Cert.ReferenceIdeal.Read

/-- The combined features `[x, h_t]` are real-valued. -/
theorem combined_real (x0 x1 : FVec Ideal S50000x64 .f32) (h0 : ∀ i, IsReal (x0 i)) (h1 : ∀ i, IsReal (x1 i))
    (i : S50000x128.Idx) : IsReal (val_main_v0 (F := Ideal) x0 x1 i) := by
  unfold val_main_v0
  exact concat_cols_real x0 x1 _ h0 h1 i

/-- The transposed matrix is real-valued. -/
theorem wt_real (x3 : FVec Ideal S256x128 .f32) (h3 : ∀ i, IsReal (x3 i)) (i : S128x256.Idx) :
    IsReal (val_main_v1 (F := Ideal) x3 i) := by
  rw [val_main_v1_apply]
  exact h3 _

/-- The extended edge weights `[edge_attr, 1, …, 1]` are real-valued. -/
theorem weights_real (x6 : FVec Ideal S800000 .f32) (h6 : ∀ i, IsReal (x6 i)) (i : S850000.Idx) :
    IsReal (val_main_v12 (F := Ideal) x6 i) := by
  have hone : ∀ j, IsReal (val_main_v11 (F := Ideal) j) := fun j => by
    show IsReal (Ideal.ofBits .f32 0x3F800000#32)
    rw [one_f32]
    exact ⟨1, rfl⟩
  unfold val_main_v12
  exact concat_vec_real x6 (val_main_v11 (F := Ideal)) _ h6 hone i

/-- Every weighted degree is a real number. -/
theorem degree_real (x5 : IVec S2x800000 32) (x6 : FVec Ideal S800000 .f32) (h6 : ∀ i, IsReal (x6 i)) (i : S50000.Idx) :
    IsReal (val_main_v15 (F := Ideal) x5 x6 i) := by
  unfold val_main_v15
  exact scatterAdd_real _ _ _ _ (fun j => ⟨0, (Ideal.ofBits_zero_f32 : val_main_v13 (F := Ideal) j = 0)⟩)
    (weights_real x6 h6) i

/-- The factor `where(deg > 0, rsqrt(deg), 0)` is a real number at every node. -/
theorem dinv_real (x5 : IVec S2x800000 32) (x6 : FVec Ideal S800000 .f32) (h6 : ∀ i, IsReal (x6 i)) (i : S50000.Idx) :
    IsReal (val_main_v19 (F := Ideal) x5 x6 i) := by
  rw [val_main_v19_apply, val_main_v17_apply, val_main_v18_apply]
  exact where_rsqrt_real _ _ _ (degree_real x5 x6 h6 i) (Ideal.ofBits_zero_f32 : val_main_v16 (F := Ideal) i = 0)
    ⟨0, (Ideal.ofBits_zero_f32 : val_main_call0_v1 (F := Ideal) i = 0)⟩

/-- The edge weight `norm = dinv[row] · w · dinv[col]` is a real number at every edge. -/
theorem norm_real (x5 : IVec S2x800000 32) (x6 : FVec Ideal S800000 .f32) (h6 : ∀ i, IsReal (x6 i)) (i : S850000.Idx) :
    IsReal (val_main_v35 (F := Ideal) x5 x6 i) := by
  rw [val_main_v35_apply, val_main_v27_apply]
  refine IsReal.mul (IsReal.mul ?_ (weights_real x6 h6 i)) ?_
  · unfold val_main_v26
    exact gather_real _ _ _ (dinv_real x5 x6 h6) i
  · unfold val_main_v34
    exact gather_real _ _ _ (dinv_real x5 x6 h6) i

end Stages

end Cert.GraphConv

end
-- ==== Proof.lean ====
/-
  The fused graph-convolution LSTM cell against its reference, over the extended reals.

  Both programs form the symmetric-normalised edge weights `norm = dinv[row] · w · dinv[col]` of the graph with
  self-loops in the same way. The reference projects the combined features `[x, h_t]` by `Wᵀ` and then sums the weighted
  256-wide rows into each edge's end node; the kernel sums the weighted 128-wide rows first and projects the sums, block
  of 5000 nodes by block, inside one Pallas call that also adds the bias and applies the LSTM gates. Aggregation is
  linear, so the two pre-activations agree wherever every number involved is real — which the precondition, all float
  inputs finite, gives (a weighted degree is a finite sum of finite weights, its reciprocal square root is taken only
  where it is positive). The gates are the same functions on both sides: `1 / (1 + exp(−z))` is the logistic function.

  The three frames are the generated ones (the reference's is its generated run with the results dropped); the
  idealization rewrote nothing, so `preserves` is trivial; `algebraic` sets the kernel's run, its two result arrays
  named as the cell of the reference's pre-activation, beside the reference's run.
-/
import proofs.«153381_j6794638262633_2_alg».proof.Defs
import proofs.«153381_j6794638262633_2_alg».proof.Proof.Gen.Kernel
import proofs.«153381_j6794638262633_2_alg».proof.Proof.Gen.Kernel.Skeleton
import proofs.«153381_j6794638262633_2_alg».proof.Proof.Gen.Kernel.Launch
import proofs.«153381_j6794638262633_2_alg».proof.Proof.Gen.Kernel.Points
import proofs.«153381_j6794638262633_2_alg».proof.Proof.Gen.Kernel.Frame
import proofs.«153381_j6794638262633_2_alg».proof.Proof.Gen.KernelIdeal
import proofs.«153381_j6794638262633_2_alg».proof.Proof.Gen.KernelIdeal.Skeleton
import proofs.«153381_j6794638262633_2_alg».proof.Proof.Gen.KernelIdeal.Launch
import proofs.«153381_j6794638262633_2_alg».proof.Proof.Gen.KernelIdeal.Points
import proofs.«153381_j6794638262633_2_alg».proof.Proof.Gen.KernelIdeal.Frame
import proofs.«153381_j6794638262633_2_alg».proof.Proof.Gen.ReferenceIdeal
import proofs.«153381_j6794638262633_2_alg».proof.Proof.Gen.Pre_finite_inputs
import proofs.«153381_j6794638262633_2_alg».proof.Proof.Gen.KernelIdeal.Value
import proofs.«153381_j6794638262633_2_alg».proof.Proof.Gen.ReferenceIdeal.Run
import proofs.«153381_j6794638262633_2_alg».proof.Proof.Gen.ReferenceIdeal.Read
import proofs.«153381_j6794638262633_2_alg».proof.Proof.KerValue
import proofs.«153381_j6794638262633_2_alg».proof.Proof.RefGate
import proofs.«153381_j6794638262633_2_alg».proof.Proof.Reals
import Idealize.ShloMosaic.Adequacy
import Idealize.ShloMosaic.Init

noncomputable section

namespace Cert.Proof

open Idealize.ShloMosaic Idealize.ShloMosaic.TcCoe Idealize.SL.Sem Cert.GraphConv

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the seven arguments, of which the float ones are finite, both programs end with the
    LSTM cell of the reference's pre-activation in their two result arrays. -/
theorem algebraic : Cert.algebraic_KernelIdeal_ReferenceIdeal := by
  intro m ρ m' ρ' hpre hagree
  refine ⟨fun c => hNext (CC m c) (A2 m c), fun c => cNext (CC m c) (A2 m c), ?_, ?_⟩
  · refine (θ_run Cert.KernelIdeal.defs _ _).mono (fun r h c => ?_) (Cert.KernelIdeal.Value.run_blocks (F := Ideal) m ρ)
    obtain ⟨r0, r1, r3, r6⟩ := reals_of_pre _ _ _ _ _ _ _ (hpre c)
    have hN := norm_real (A5 m c) (A6 m c) r6
    have hC := combined_real (A0 m c) (A1 m c) r0 r1
    have hW := wt_real (A3 m c) r3
    exact ⟨(h c).1.trans (final4 m c hN hC hW), (h c).2.1.trans (final5 m c hN hC hW), (h c).2.2⟩
  · refine (θ_run Cert.ReferenceIdeal.defs _ _).mono (fun r h c => ?_) (Cert.ReferenceIdeal.Value.run (F := Ideal) m' ρ')
    obtain ⟨a0, a1, a2, a3, a4, a5, a6⟩ := hagree c
    refine ⟨(h c).1.trans ?_, (h c).2.1.trans ?_, (h c).2.2⟩
    · rw [Cert.ReferenceIdeal.Read.val_main_v79_eq, a0, a1, a2, a3, a4, a5, a6]
      exact ref_h _ _ _ _ _ _ _
    · rw [Cert.ReferenceIdeal.Read.val_main_v77_eq, a0, a1, a2, a3, a4, a5, a6]
      exact ref_c _ _ _ _ _ _ _

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
